-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg2 : FVec F S512 .f32) (main_arg4 : FVec F S16 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_cst_8 : FVec F S_ .f32 := constant S_ .f32 0x00000000#32
  let main_v24 : FVec F S512 .f32 := broadcastInDim S512 ![] bcast_S_S512 main_cst_8
  let main_v25 : IVec S512 1 := cmpf .une main_arg2 main_v24
  let main_c_9 : IVec S_ 1 := constantI S_ 1 1#1
  let main_v26 : IVec S_ 1 := (fun x v => Host.reduce IntOp.andi x v reducesTo_S512_S_d0 h_S_) main_v25 main_c_9
  let main_v27 : IVec S_ 1 := andi main_v23 main_v26
  main_v27

def fn {F : FTy → Type} [FloatOps F] (main_arg0 : FVec F S131072x64 .f32) (main_arg1 : FVec F S512x64 .f32) (main_arg2 : FVec F S512 .f32) (main_arg3 : FVec F S512x16 .f32) (main_arg4 : FVec F S16 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x16 .f32 := Host.absf main_arg3
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg2 main_arg4 main_v13 main_v16
-- ==== Kernel.lean ====
abbrev S131072x64 : Shape := ⟨2, ![131072, 64]⟩
abbrev S512x64 : Shape := ⟨2, ![512, 64]⟩
abbrev S512 : Shape := ⟨1, ![512]⟩
abbrev S512x16 : Shape := ⟨2, ![512, 16]⟩
abbrev S16 : Shape := ⟨1, ![16]⟩
abbrev S_ : Shape := ⟨0, ![]⟩
abbrev S512x1 : Shape := ⟨2, ![512, 1]⟩
abbrev S1x512 : Shape := ⟨2, ![1, 512]⟩
abbrev S1x16 : Shape := ⟨2, ![1, 16]⟩
abbrev S131072x16 : Shape := ⟨2, ![131072, 16]⟩
abbrev S2048x64 : Shape := ⟨2, ![2048, 64]⟩
abbrev S2048x16 : Shape := ⟨2, ![2048, 16]⟩
abbrev S2048 : Shape := ⟨1, ![2048]⟩
abbrev S2048x1 : Shape := ⟨2, ![2048, 1]⟩
abbrev S64x512 : Shape := ⟨2, ![64, 512]⟩
abbrev S2048x512 : Shape := ⟨2, ![2048, 512]⟩

abbrev nBuf : Space → Nat
  | .hbm => 20
  | .vmem => 9
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S1x512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S1x16, .f32⟩
  | .hbm, ⟨19, _⟩ => ⟨S131072x16, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S1x512, .f32⟩
  | .local _ .vmem, ⟨4, _⟩ => ⟨S1x512, .f32⟩
  | .local _ .vmem, ⟨5, _⟩ => ⟨S512x16, .f32⟩
  | .local _ .vmem, ⟨6, _⟩ => ⟨S1x16, .f32⟩
  | .local _ .vmem, ⟨7, _⟩ => ⟨S2048x16, .f32⟩
  | .local _ .vmem, ⟨8, _⟩ => ⟨S2048x16, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512x64_S512_d1 : S512x64.ReducesTo [1] S512
  h_S_ : 0 < S_.numel
  bcast_S512_S512x1_0 : S512.BroadcastsInDim S512x1 (![0] : Fin 1 → Fin S512x1.rank)
  shapeCasts_S512x1_S1x512 : S512x1.ShapeCasts S1x512
  bcast_S_S512 : S_.BroadcastsInDim S512 (![] : Fin 0 → Fin S512.rank)
  shapeCasts_S512_S1x512 : S512.ShapeCasts S1x512
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  reduces_S2048x64_S2048 : S2048x64.Reduces [1] S2048
  shapeCasts_S2048_S2048x1 : S2048.ShapeCasts S2048x1
  transposes_S512x64_p1_0_S64x512 : S512x64.Transposes [1, 0] S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  broadcasts_S2048x1_S2048x16 : S2048x1.Broadcasts S2048x16
  inb_S2048x16_S2048x16_0_0 : ∀ a, (![0, 0] : Fin 2 → Nat) a + S2048x16.size a ≤ S2048x16.size a
  h_S2048x16 : 0 < S2048x16.numel
  dot_S2048x64_S64x512_S2048x512_1_0_0_1_n_n_wf : DotDims.WF S2048x64 S64x512 S2048x512 [1] [0] [0] [1] [] []
  dot_S2048x512_S512x16_S2048x16_1_0_0_1_n_n_wf : DotDims.WF S2048x512 S512x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S512x16.size a
  hwx0_4 : ∀ i : grid0.Coords, EltTy.bits .f32 = 32 ∨ (Rect.block (s := S512x16) S512x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x16.size a ≤ S131072x16.size a
  hwx0_6 : ∀ i : grid0.Coords, EltTy.bits .f32 = 32 ∨ (Rect.block (s := S131072x16) S2048x16.size (cc0_transform_6 i) (hinb0_6 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2048x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S512 : Shape := ⟨1, ![512]⟩
abbrev S512x16 : Shape := ⟨2, ![512, 16]⟩
abbrev S16 : Shape := ⟨1, ![16]⟩
abbrev S_ : Shape := ⟨0, ![]⟩
abbrev S131072 : Shape := ⟨1, ![131072]⟩
abbrev S131072x1 : Shape := ⟨2, ![131072, 1]⟩
abbrev S1x512 : Shape := ⟨2, ![1, 512]⟩
abbrev S131072x512 : Shape := ⟨2, ![131072, 512]⟩
abbrev S64x512 : Shape := ⟨2, ![64, 512]⟩
abbrev S131072x16 : Shape := ⟨2, ![131072, 16]⟩
abbrev S1x16 : Shape := ⟨2, ![1, 16]⟩

abbrev nBuf : Space → Nat
  | .hbm => 40
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S131072x64, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x64, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S64x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S131072x16, .f32⟩
  | .hbm, ⟨32, _⟩ => ⟨S1x16, .f32⟩
  | .hbm, ⟨33, _⟩ => ⟨S131072x16, .f32⟩
  | .hbm, ⟨34, _⟩ => ⟨S131072x16, .f32⟩
  | .hbm, ⟨35, _⟩ => ⟨S_, .f32⟩
  | .hbm, ⟨36, _⟩ => ⟨S131072, .f32⟩
  | .hbm, ⟨37, _⟩ => ⟨S131072x1, .f32⟩
  | .hbm, ⟨38, _⟩ => ⟨S131072x16, .f32⟩
  | .hbm, ⟨39, _⟩ => ⟨S131072x16, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  bcast_S_S512 : S_.BroadcastsInDim S512 (![] : Fin 0 → Fin S512.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  reducesTo_S131072x16_S131072_d1 : S131072x16.ReducesTo [1] S131072
  bcast_S131072x1_S131072x16_0_1 : S131072x1.BroadcastsInDim S131072x16 (![0, 1] : Fin 2 → Fin S131072x16.rank)
  dot_S131072x64_S64x512_S131072x512_1_0_0_1_n_n_wf : DotDims.WF S131072x64 S64x512 S131072x512 [1] [0] [0] [1] [] []
  dot_S131072x512_S512x16_S131072x16_1_0_0_1_n_n_wf : DotDims.WF S131072x512 S512x16 S131072x16 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x512_S512x16_S131072x16_1_0_0_1_n_n : DotDims S131072x512 S512x16 S131072x16 where
  lhsContracting := [1]
  rhsContracting := [0]
  lhsNonContracting := [0]
  rhsNonContracting := [1]
  lhsBatch := []
  rhsBatch := []
  wf := dot_S131072x512_S512x16_S131072x16_1_0_0_1_n_n_wf

class Facts : Prop extends Facts₀ where

variable [Facts]
-- ==== Proof.Spec.lean ====
/-
  The radial-basis network, row by row, on the extended reals.

  For one sample `x` (64 features), 512 centroids `c_h` with widths `σ_h`, a 512 × 16 weight matrix `w` and a
  bias `b`:
    * the squared distance in its expanded form  `s_h = (Σ_d x_d² + Σ_d c_hd²) − 2 · Σ_d x_d c_hd`,
    * the activation `a_h = exp(e_h)` of an exponent `e_h` computed from `s_h` and `2 σ_h σ_h`,
    * the linear layer `y_o = Σ_h a_h w_ho + b_o`, and the normalisation `y_o / Σ_o' y_o'`.
  The exponent is written in two ways: as the product `s_h · ((−1) / (2 σ_h σ_h))` with a reciprocal computed
  beforehand, and as the quotient `(−s_h) / (2 σ_h σ_h)`.  On the extended reals a quotient by a divisor that is not
  zero is the product with the inverse, so the two agree whenever `σ_h ≠ 0` (`exponent_eq`); at `σ_h = 0` they do
  not (with `s_h = 0` the first is `0 · (−∞) = 0`, the second the value chosen for `0 / 0`).
-/
import Idealize.ShloMosaic.PureOps.Ideal.Laws
import Idealize.ShloMosaic.Lib.ValueIdx
import Idealize.ShloMosaic.Lib.IdealHost

noncomputable section

open scoped BigOperators

namespace Cert.Rbf

open Idealize.ShloMosaic Idealize.ShloMosaic.ValueIdx

/-- The literal `2.0` both programs carry, as the extended real its bits denote. -/
abbrev two : EReal := Ideal.ofBits .f32 0x40000000#32

/-- The literal `-1.0` of the reciprocal computed beforehand. -/
abbrev negOne : EReal := Ideal.ofBits .f32 0xBF800000#32

theorem two_eq : two = ((2 : ℝ) : EReal) := by
  simp [two, Ideal.ofBits, Ideal.ieee, -EReal.coe_mul]; norm_num

theorem negOne_eq : negOne = ((-(1 : ℝ) : ℝ) : EReal) := by
  simp [negOne, Ideal.ofBits, Ideal.ieee, -EReal.coe_mul, -EReal.coe_neg]; norm_num

theorem two_ne_zero : two ≠ 0 := by
  rw [two_eq]; exact_mod_cast (by norm_num : (2 : ℝ) ≠ 0)

/-- The squared distance between a sample `xr` and a centroid `cr` in the expanded form `|x|² + |c|² − 2 x·c`, the
    centroid's squared norm `cs` supplied. -/
def sqDist (xr cr : Fin 64 → EReal) (cs : EReal) : EReal :=
  ((∑ d, xr d * xr d) + cs) - two * ∑ d, xr d * cr d

/-- The linear layer over the 512 activations, plus the bias. -/
def lin (a : Fin 512 → EReal) (w : Fin 512 → Fin 16 → EReal) (b : Fin 16 → EReal) (o : Fin 16) : EReal :=
  (∑ h, a h * w h o) + b o

/-- A row of 16 outputs divided by its sum. -/
def normalize (y : Fin 16 → EReal) (o : Fin 16) : EReal := Ideal.div (y o) (∑ o', y o')

/-- The network's row from the exponents of its 512 hidden units. -/
def net (e : Fin 512 → EReal) (w : Fin 512 → Fin 16 → EReal) (b : Fin 16 → EReal) (o : Fin 16) : EReal :=
  normalize (lin (fun h => Ideal.exp (e h)) w b) o

/-- The exponent as a product with the reciprocal `(−1) / den`. -/
def expoMul (s den : EReal) : EReal := s * Ideal.div negOne den

/-- The exponent as the quotient `(−s) / den`. -/
def expoDiv (s den : EReal) : EReal := Ideal.div (-s) den

/-- For a divisor that is not zero both exponents are `−(s · den⁻¹)`: no finiteness of `s` is needed, since only
    associativity of the product and the sign rule are used. -/
theorem expo_eq {s den : EReal} (h : den ≠ 0) : expoMul s den = expoDiv s den := by
  unfold expoMul expoDiv Ideal.div
  rw [if_neg h, if_neg h, negOne_eq, EReal.coe_neg, EReal.coe_one, neg_mul, one_mul, mul_neg, neg_mul]

/-- `2 σ σ` vanishes only at `σ = 0`. -/
theorem den_ne_zero {σ : EReal} (h : σ ≠ 0) : (two * σ) * σ ≠ 0 :=
  mul_ne_zero (mul_ne_zero two_ne_zero h) h

/-- THE WHOLE RESULT as one function of the five argument arrays, for either way of writing the exponent. -/
def G (expo : EReal → EReal → EReal) (x : (⟨2, ![131072, 64]⟩ : Shape).Idx → EReal) (c : (⟨2, ![512, 64]⟩ : Shape).Idx → EReal)
    (σ : (⟨1, ![512]⟩ : Shape).Idx → EReal) (w : (⟨2, ![512, 16]⟩ : Shape).Idx → EReal) (b : (⟨1, ![16]⟩ : Shape).Idx → EReal) :
    (⟨2, ![131072, 16]⟩ : Shape).Idx → EReal := fun i =>
  net (fun h => expo (sqDist (fun d => x (ix2 (i 0 : Fin 131072) d)) (fun d => c (ix2 h d)) (∑ d, c (ix2 h d) * c (ix2 h d)))
      ((two * σ (ix1 h)) * σ (ix1 h)))
    (fun h o => w (ix2 h o)) (fun o => b (ix1 o)) (i 1 : Fin 16)

/-- With every width different from zero the two results are one function. -/
theorem G_expo_eq (x : (⟨2, ![131072, 64]⟩ : Shape).Idx → EReal) (c : (⟨2, ![512, 64]⟩ : Shape).Idx → EReal)
    (σ : (⟨1, ![512]⟩ : Shape).Idx → EReal) (w : (⟨2, ![512, 16]⟩ : Shape).Idx → EReal) (b : (⟨1, ![16]⟩ : Shape).Idx → EReal)
    (hσ : ∀ h : Fin 512, σ (ix1 h) ≠ 0) : G expoMul x c σ w b = G expoDiv x c σ w b := by
  funext i
  unfold G
  exact congrArg (fun e => net e _ _ _) (funext fun h => expo_eq (den_ne_zero (hσ h)))

end Cert.Rbf

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.Pay.lean ====
/-
  What the kernel body stores, entry by entry.

  From one block of 2048 samples `x0`, the centroids `x1`, the row `x2` of the centroids' squared norms, the row `x3`
  of reciprocals `(−1) / (2 σ_h σ_h)`, the weights `x4` and the bias row `x5`, the stored value at `(r, o)` is the
  network's row for sample `r` with the exponent `s_h · x3_h`: the sum of squares of a row kept as a column and
  spread over 512 columns reads `Σ_d x0[r,d]²`, a one-row array spread over the rows reads its one row, the two
  matrix products into zero accumulators are plain sums over the contracted axis (the first against the transposed
  centroids, so its factor at `(d, h)` is `x1[h, d]`), and the changes of float format are the identity.
-/
import proofs.«153854_j58171037057369_2_alg».proof.Proof.Gen.KernelIdeal.Skeleton
import proofs.«153854_j58171037057369_2_alg».proof.Proof.Spec
import proofs.«153854_j58171037057369_2_alg».proof.Proof.LibKeepdims
import Idealize.ShloMosaic.Lib.ValueLayout
import Idealize.ShloMosaic.Lib.Pipeline.Value

noncomputable section

open scoped BigOperators

namespace Cert.KernelIdeal.Pay

open Cert.KernelIdeal Cert.KernelIdeal.Gen
open Idealize.ShloMosaic Idealize.ShloMosaic.ValueIdx Cert.Rbf Cert.LibKeepdims

/-- The exponential of a vector reads the exponential of the entry. -/
theorem exp_apply {s : Shape} {φ : FTy} (a : FVec Ideal s φ) (i : s.Idx) : exp a i = Ideal.exp (a i) := rfl

/-! ### The two matrix products -/

theorem lhs1_0 (i : S2048x512.Idx) (q : dot_S2048x64_S64x512_S2048x512_1_0_0_1_n_n.contr.Idx) :
    (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide),
    dif_pos (show (0 : Fin S2048x64.rank) ∈ dot_S2048x64_S64x512_S2048x512_1_0_0_1_n_n.lhsNonContracting by decide)]
  rfl
theorem lhs1_1 (i : S2048x512.Idx) (q : dot_S2048x64_S64x512_S2048x512_1_0_0_1_n_n.contr.Idx) :
    (dot_S2048x64_S64x512_S2048x512_1_0_0_1_n_n.lhsIdx i q 1).val = (q ⟨0, by decide⟩).val :=
  dot_S2048x64_S64x512_S2048x512_1_0_0_1_n_n.lhsIdx_val_of_single rfl i q
theorem rhs1_0 (i : S2048x512.Idx) (q : dot_S2048x64_S64x512_S2048x512_1_0_0_1_n_n.contr.Idx) :
    (dot_S2048x64_S64x512_S2048x512_1_0_0_1_n_n.rhsIdx i q 0).val = (q ⟨0, by decide⟩).val :=
  dot_S2048x64_S64x512_S2048x512_1_0_0_1_n_n.rhsIdx_val_of_single rfl i q
theorem rhs1_1 (i : S2048x512.Idx) (q : dot_S2048x64_S64x512_S2048x512_1_0_0_1_n_n.contr.Idx) :
    (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide),
    dif_pos (show (1 : Fin S64x512.rank) ∈ dot_S2048x64_S64x512_S2048x512_1_0_0_1_n_n.rhsNonContracting by decide)]
  rfl

/-- The product of a `[2048, 64]` block with a `[64, 512]` matrix into a zero accumulator, at `(r, h)`. -/
theorem dot1_apply (prec : Option ContractPrecision) (l : FVec Ideal S2048x64 .f32) (y : FVec Ideal S64x512 .f32)
    (r : Fin 2048) (h : Fin 512) :
    matmul dot_S2048x64_S64x512_S2048x512_1_0_0_1_n_n prec l y (constant (F := Ideal) S2048x512 .f32 0x00000000#32) (ix2 r h)
      = ∑ d : Fin 64, l (ix2 r d) * y (ix2 d h) := by
  simp only [matmul]
  rw [Ideal.matmul_constant_zero_apply,
    ← Equiv.sum_comp (contrEquiv1 dot_S2048x64_S64x512_S2048x512_1_0_0_1_n_n 64 rfl rfl).symm]
  refine Finset.sum_congr rfl fun k _ => ?_
  have hk := contrEquiv1_symm_val dot_S2048x64_S64x512_S2048x512_1_0_0_1_n_n 64 rfl rfl k
  have el : dot_S2048x64_S64x512_S2048x512_1_0_0_1_n_n.lhsIdx (ix2 r h)
      ((contrEquiv1 dot_S2048x64_S64x512_S2048x512_1_0_0_1_n_n 64 rfl rfl).symm k) = ix2 r k :=
    funext fun a => Fin.ext (by
      match a with
      | ⟨0, _⟩ => exact lhs1_0 _ _
      | ⟨1, _⟩ => exact (lhs1_1 _ _).trans hk)
  have er : dot_S2048x64_S64x512_S2048x512_1_0_0_1_n_n.rhsIdx (ix2 r h)
      ((contrEquiv1 dot_S2048x64_S64x512_S2048x512_1_0_0_1_n_n 64 rfl rfl).symm k) = ix2 k h :=
    funext fun a => Fin.ext (by
      match a with
      | ⟨0, _⟩ => exact (rhs1_0 _ _).trans hk
      | ⟨1, _⟩ => exact rhs1_1 _ _)
  rw [el, er]

theorem lhs2_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide),
    dif_pos (show (0 : Fin S2048x512.rank) ∈ dot_S2048x512_S512x16_S2048x16_1_0_0_1_n_n.lhsNonContracting by decide)]
  rfl
theorem lhs2_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
theorem rhs2_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q
theorem rhs2_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide),
    dif_pos (show (1 : Fin S512x16.rank) ∈ dot_S2048x512_S512x16_S2048x16_1_0_0_1_n_n.rhsNonContracting by decide)]
  rfl

/-- The product of the `[2048, 512]` activations with the `[512, 16]` weights into a zero accumulator, at `(r, o)`;
    the operands may be of any float format. -/
theorem dot2_apply {φ₁ φ₂ : FTy} (prec : Option ContractPrecision) (l : FVec Ideal S2048x512 φ₁) (y : FVec Ideal S512x16 φ₂)
    (r : Fin 2048) (o : Fin 16) :
    matmul dot_S2048x512_S512x16_S2048x16_1_0_0_1_n_n prec l y (constant (F := Ideal) S2048x16 .f32 0x00000000#32) (ix2 r o)
      = ∑ h : Fin 512, l (ix2 r h) * y (ix2 h o) := by
  simp only [matmul]
  rw [Ideal.matmul_constant_zero_apply,
    ← Equiv.sum_comp (contrEquiv1 dot_S2048x512_S512x16_S2048x16_1_0_0_1_n_n 512 rfl rfl).symm]
  refine Finset.sum_congr rfl fun k _ => ?_
  have hk := contrEquiv1_symm_val dot_S2048x512_S512x16_S2048x16_1_0_0_1_n_n 512 rfl rfl k
  have el : dot_S2048x512_S512x16_S2048x16_1_0_0_1_n_n.lhsIdx (ix2 r o)
      ((contrEquiv1 dot_S2048x512_S512x16_S2048x16_1_0_0_1_n_n 512 rfl rfl).symm k) = ix2 r k :=
    funext fun a => Fin.ext (by
      match a with
      | ⟨0, _⟩ => exact lhs2_0 _ _
      | ⟨1, _⟩ => exact (lhs2_1 _ _).trans hk)
  have er : dot_S2048x512_S512x16_S2048x16_1_0_0_1_n_n.rhsIdx (ix2 r o)
      ((contrEquiv1 dot_S2048x512_S512x16_S2048x16_1_0_0_1_n_n 512 rfl rfl).symm k) = ix2 k o :=
    funext fun a => Fin.ext (by
      match a with
      | ⟨0, _⟩ => exact (rhs2_0 _ _).trans hk
      | ⟨1, _⟩ => exact rhs2_1 _ _)
  rw [el, er]

/-! ### Rows and columns spread over a block -/

/-- The sums of squares of the rows of a `[2048, 64]` block, kept as a column and spread over 512 columns. -/
theorem sumSq_apply (x0 : FVec Ideal S2048x64 .f32) (hacc : (0x00000000#32 : BitVec 32) = 0x00000000#32)
    (r : Fin 2048) (h : Fin 512) :
    broadcastTo S2048x512 (shapeCast S2048x1 (multiReduction .add [1] S2048 (mulf x0 x0) 0x00000000#32
      reduces_S2048x64_S2048 (.inl rfl) hacc) shapeCasts_S2048_S2048x1) broadcasts_S2048x1_S2048x512 (ix2 r h)
      = ∑ d : Fin 64, x0 (ix2 r d) * x0 (ix2 r d) :=
  rowSum_keepdims_broadcast_apply (mulf x0 x0) 0x00000000#32 reduces_S2048x64_S2048 (.inl rfl) hacc
    shapeCasts_S2048_S2048x1 broadcasts_S2048x1_S2048x512 r h

/-- The sums of the rows of a `[2048, 16]` block, kept as a column and spread over the 16 columns. -/
theorem rowSum_apply (y : FVec Ideal S2048x16 .f32) (hacc : (0x00000000#32 : BitVec 32) = 0x00000000#32)
    (r : Fin 2048) (o : Fin 16) :
    broadcastTo S2048x16 (shapeCast S2048x1 (multiReduction .add [1] S2048 y 0x00000000#32
      reduces_S2048x16_S2048 (.inl rfl) hacc) shapeCasts_S2048_S2048x1) broadcasts_S2048x1_S2048x16 (ix2 r o)
      = ∑ o' : Fin 16, y (ix2 r o') :=
  rowSum_keepdims_broadcast_apply y 0x00000000#32 reduces_S2048x16_S2048 (.inl rfl) hacc
    shapeCasts_S2048_S2048x1 broadcasts_S2048x1_S2048x16 r o

/-- A `[1, 512]` row spread over 2048 rows reads the row. -/
theorem row512_apply (v : FVec Ideal S1x512 .f32) (r : Fin 2048) (h : Fin 512) :
    broadcastTo S2048x512 (shapeCast S1x512 v shapeCasts_S1x512_S1x512) broadcasts_S1x512_S2048x512 (ix2 r h)
      = v (ix2 (0 : Fin 1) h) := by
  rw [shapeCast_self]
  exact broadcastTo_1b_ab_apply v broadcasts_S1x512_S2048x512 r h

/-- A `[1, 16]` row spread over 2048 rows reads the row. -/
theorem row16_apply (v : FVec Ideal S1x16 .f32) (r : Fin 2048) (o : Fin 16) :
    broadcastTo S2048x16 (shapeCast S1x16 v shapeCasts_S1x16_S1x16) broadcasts_S1x16_S2048x16 (ix2 r o)
      = v (ix2 (0 : Fin 1) o) := by
  rw [shapeCast_self]
  exact broadcastTo_1b_ab_apply v broadcasts_S1x16_S2048x16 r o

/-- The samples against the transposed centroids: at `(r, h)` the inner product of sample `r` with centroid `h` (the
    transposed matrix reads, at `(d, h)`, centroid `h`'s feature `d`). -/
theorem dotT_apply (prec : Option ContractPrecision) (l : FVec Ideal S2048x64 .f32) (x1 : FVec Ideal S512x64 .f32)
    (r : Fin 2048) (h : Fin 512) :
    matmul dot_S2048x64_S64x512_S2048x512_1_0_0_1_n_n prec l (transpose S64x512 [1, 0] x1 transposes_S512x64_p1_0_S64x512)
        (constant (F := Ideal) S2048x512 .f32 0x00000000#32) (ix2 r h)
      = ∑ d : Fin 64, l (ix2 r d) * x1 (ix2 h d) :=
  (dot1_apply prec l _ r h).trans (Finset.sum_congr rfl fun d _ =>
    congrArg (l (ix2 r d) * ·) (transpose_ix2_apply x1 transposes_S512x64_p1_0_S64x512 d h))

/-! ### The same three, as whole blocks -/

/-- The sums of squares spread over 512 columns, as a function of the block index. -/
theorem sumSq_block (x0 : FVec Ideal S2048x64 .f32) :
    broadcastTo S2048x512 (shapeCast S2048x1 (multiReduction .add [1] S2048 (mulf x0 x0) 0x00000000#32
      reduces_S2048x64_S2048 (.inl rfl) rfl) shapeCasts_S2048_S2048x1) broadcasts_S2048x1_S2048x512
      = fun i => ∑ d : Fin 64, x0 (ix2 (i 0 : Fin 2048) d) * x0 (ix2 (i 0 : Fin 2048) d) := by
  funext i
  obtain ⟨r, h, rfl⟩ : ∃ (r : Fin 2048) (h : Fin 512), i = ix2 r h := ⟨i 0, i 1, eq_ix2 i⟩
  exact sumSq_apply x0 rfl r h

/-- The row sums spread over the 16 columns, as a function of the block index. -/
theorem rowSum_block (y : FVec Ideal S2048x16 .f32) :
    broadcastTo S2048x16 (shapeCast S2048x1 (multiReduction .add [1] S2048 y 0x00000000#32
      reduces_S2048x16_S2048 (.inl rfl) rfl) shapeCasts_S2048_S2048x1) broadcasts_S2048x1_S2048x16
      = fun i => ∑ o' : Fin 16, y (ix2 (i 0 : Fin 2048) o') := by
  funext i
  obtain ⟨r, o, rfl⟩ : ∃ (r : Fin 2048) (o : Fin 16), i = ix2 r o := ⟨i 0, i 1, eq_ix2 i⟩
  exact rowSum_apply y rfl r o

/-- The samples against the transposed centroids, as a function of the block index. -/
theorem dotT_block (prec : Option ContractPrecision) (l : FVec Ideal S2048x64 .f32) (x1 : FVec Ideal S512x64 .f32) :
    matmul dot_S2048x64_S64x512_S2048x512_1_0_0_1_n_n prec l (transpose S64x512 [1, 0] x1 transposes_S512x64_p1_0_S64x512)
        (constant (F := Ideal) S2048x512 .f32 0x00000000#32)
      = fun i => ∑ d : Fin 64, l (ix2 (i 0 : Fin 2048) d) * x1 (ix2 (i 1 : Fin 512) d) := by
  funext i
  obtain ⟨r, h, rfl⟩ : ∃ (r : Fin 2048) (h : Fin 512), i = ix2 r h := ⟨i 0, i 1, eq_ix2 i⟩
  exact dotT_apply prec l x1 r h

/-! ### The stored value -/

/-- The body's stored value at `(r, o)` is the network's row for sample `r`, the exponent of unit `h` the squared
    distance times the reciprocal `x3[0, h]`. -/
theorem pay_apply (x0 : FVec Ideal S2048x64 .f32) (x1 : FVec Ideal S512x64 .f32) (x2 x3 : FVec Ideal S1x512 .f32)
    (x4 : FVec Ideal S512x16 .f32) (x5 : FVec Ideal S1x16 .f32) (r : Fin 2048) (o : Fin 16) :
    k0_pay1 (F := Ideal) x0 x1 x2 x3 x4 x5 (ix2 r o)
      = net (fun h => sqDist (fun d => x0 (ix2 r d)) (fun d => x1 (ix2 h d)) (x2 (ix2 (0 : Fin 1) h)) * x3 (ix2 (0 : Fin 1) h))
          (fun h o' => x4 (ix2 h o')) (fun o' => x5 (ix2 (0 : Fin 1) o')) o := by
  unfold k0_pay1
  dsimp only
  rw [sumSq_block, rowSum_block, dotT_block]
  simp only [divf_apply, addf_apply, dot2_apply, row16_apply, truncf_apply, exp_apply, mulf_apply,
    subf_apply, row512_apply, broadcast_apply]
  rfl

end Cert.KernelIdeal.Pay

end
-- ==== Proof.Prefix.lean ====
/-
  The three rows computed before the grid runs.

  Before the samples are streamed, the centroids' squared norms, the reciprocals `(−1) / (2 σ_h σ_h)` and the bias
  are laid out as one-row arrays.  Read at `(0, h)`: the first is `Σ_d c[h,d]²` (a sum over the feature axis started
  from the literal zero, kept as a column `[512, 1]` and recast as a row `[1, 512]`: both positions are the `h`-th in
  row-major order); the second is the quotient of the literal `−1` by `(2 σ_h) σ_h`; the third is the bias itself.
-/
import proofs.«153854_j58171037057369_2_alg».proof.Proof.Gen.KernelIdeal.Frame
import proofs.«153854_j58171037057369_2_alg».proof.Proof.Spec
import Idealize.ShloMosaic.Lib.StableHlo.Run
import Idealize.ShloMosaic.Lib.ValueLayout
import Idealize.ShloMosaic.Lib.IdealHost

noncomputable section

open scoped BigOperators

namespace Cert.KernelIdeal.Prefix

open Cert.KernelIdeal Cert.KernelIdeal.Gen
open Idealize.ShloMosaic Idealize.ShloMosaic.TcCoe Idealize.SL.Sem Idealize.ShloMosaic.StableHlo
open Idealize.ShloMosaic.ValueIdx Cert.Rbf

/-- The centroids' squared norms as a `[1, 512]` row. -/
def csqRow (c : FVec Ideal S512x64 .f32) : FVec Ideal S1x512 .f32 :=
  shapeCast S1x512 (broadcastInDim S512x1 ![0] bcast_S512_S512x1_0
    (Host.reduceAdd (F := Ideal) (mulf c c) (constant (F := Ideal) S_ .f32 0x00000000#32) reducesTo_S512x64_S512_d1 h_S_))
    shapeCasts_S512x1_S1x512

/-- The reciprocals `(−1) / (2 σ σ)` as a `[1, 512]` row. -/
def gammaRow (σ : FVec Ideal S512 .f32) : FVec Ideal S1x512 .f32 :=
  shapeCast S1x512 (Host.divf (F := Ideal) (broadcastInDim S512 ![] bcast_S_S512 (constant (F := Ideal) S_ .f32 0xBF800000#32))
    (mulf (mulf (broadcastInDim S512 ![] bcast_S_S512 (constant (F := Ideal) S_ .f32 0x40000000#32)) σ) σ))
    shapeCasts_S512_S1x512

/-- The bias as a `[1, 16]` row. -/
def biasRow (b : FVec Ideal S16 .f32) : FVec Ideal S1x16 .f32 := shapeCast S1x16 b shapeCasts_S16_S1x16

theorem csqRow_apply (c : FVec Ideal S512x64 .f32) (h : Fin 512) :
    csqRow c (ix2 (0 : Fin 1) h) = ∑ d : Fin 64, c (ix2 h d) * c (ix2 h d) := by
  unfold csqRow
  refine (shapeCast_apply _ shapeCasts_S512x1_S1x512 (ix2 (0 : Fin 1) h) (ix2 h (0 : Fin 1)) ?_).trans ?_
  · rw [Shape.rowMajor_val_two, Shape.rowMajor_val_two]
    show h.val * 1 + 0 = 0 * 512 + h.val
    omega
  refine (broadcastInDim_apply _ bcast_S512_S512x1_0 _ (ix2 h (0 : Fin 1)) (ix1 h) (fun a => match a with
    | ⟨0, _⟩ => by show h.val = if (512 : Nat) = 1 then 0 else h.val; rw [if_neg (by decide)])).trans ?_
  show Host.reduceAdd (F := Ideal) (mulf c c) _ reducesTo_S512x64_S512_d1 h_S_ (ix1 h) = ∑ d : Fin 64, (mulf c c) (ix2 h d)
  generalize mulf c c = y0
  simp only [Host.reduceAdd, Ideal.hostReduceAdd_def]
  rw [Ideal.hostReduceAdd_single reducesTo_S512x64_S512_d1 (by decide)]
  have hz : (constant (F := Ideal) S_ .f32 0x00000000#32) (Shape.Idx.first h_S_) = 0 := Ideal.ofBits_zero_f32
  rw [hz, zero_add]
  exact Finset.sum_congr rfl fun k _ => congrArg y0 (funext fun a => Fin.ext (by
    match a with
    | ⟨0, _⟩ => rfl
    | ⟨1, _⟩ => rfl))

theorem gammaRow_apply (σ : FVec Ideal S512 .f32) (h : Fin 512) :
    gammaRow σ (ix2 (0 : Fin 1) h) = Ideal.div negOne ((two * σ (ix1 h)) * σ (ix1 h)) := by
  unfold gammaRow
  rw [shapeCast_a_1a_apply]
  rfl

theorem biasRow_apply (b : FVec Ideal S16 .f32) (o : Fin 16) : biasRow b (ix2 (0 : Fin 1) o) = b (ix1 o) := by
  unfold biasRow
  exact shapeCast_a_1a_apply b shapeCasts_S16_S1x16 (0 : Fin 1) o

variable (m : (ℓ : Loc nD τ sig) → Buf (Elt Ideal) ℓ)

/-- The region finds the squared norms of the centroids it was launched with. -/
theorem V_csq (c : Dev nD) : (V m c main_v3 : S1x512.Idx → EReal) = csqRow (m ((c : Thread nD τ).loc main_arg1)) := by
  dsimp only [Gen.V, Gen.hostOps0]; after_results; rfl

/-- The region finds the reciprocals of the widths it was launched with. -/
theorem V_gamma (c : Dev nD) : (V m c main_v9 : S1x512.Idx → EReal) = gammaRow (m ((c : Thread nD τ).loc main_arg2)) := by
  dsimp only [Gen.V, Gen.hostOps0]; after_results; rfl

/-- The region finds the bias it was launched with. -/
theorem V_bias (c : Dev nD) : (V m c main_v10 : S1x16.Idx → EReal) = biasRow (m ((c : Thread nD τ).loc main_arg4)) := by
  dsimp only [Gen.V, Gen.hostOps0]; after_results; rfl

end Cert.KernelIdeal.Prefix

end
-- ==== Proof.Whole.lean ====
/-
  From the blocks to the whole result.

  Grid point `t` (of 64) works on samples `2048 t … 2048 t + 2047`: the sample window and the output window both sit
  at block row `t`, and the other five windows always hold their whole arrays.  So what point `t` writes back is the
  restriction, to rows `2048 t …`, of ONE function of the six arrays the region finds — the network's row for each
  sample — and since every row lies in exactly the block of point `row / 2048`, the result array ends up holding that
  function everywhere.  The three rows prepared beforehand are then read back in terms of the arguments.
-/
import proofs.«153854_j58171037057369_2_alg».proof.Proof.Gen.KernelIdeal.Value
import proofs.«153854_j58171037057369_2_alg».proof.Proof.Pay
import proofs.«153854_j58171037057369_2_alg».proof.Proof.Prefix

noncomputable section

open scoped BigOperators

namespace Cert.KernelIdeal.Whole

open Cert.KernelIdeal Cert.KernelIdeal.Gen
open Idealize.ShloMosaic Idealize.ShloMosaic.TcCoe Idealize.SL.Sem
open Idealize.ShloMosaic.Pipeline (Dat)
open Idealize.ShloMosaic.ValueIdx Cert.Rbf Cert.KernelIdeal.Pay Cert.KernelIdeal.Prefix

/-- The result as one function of the six arrays the windows stage: the samples, the centroids, the row of squared
    norms, the row of reciprocals, the weights and the bias row. -/
def Gk (A0 : FVec Ideal S131072x64 .f32) (A1 : FVec Ideal S512x64 .f32) (A2 A3 : FVec Ideal S1x512 .f32)
    (A4 : FVec Ideal S512x16 .f32) (A5 : FVec Ideal S1x16 .f32) : FVec Ideal S131072x16 .f32 := fun i =>
  net (fun h => sqDist (fun d => A0 (ix2 (i 0 : Fin 131072) d)) (fun d => A1 (ix2 h d)) (A2 (ix2 (0 : Fin 1) h))
        * A3 (ix2 (0 : Fin 1) h))
    (fun h o' => A4 (ix2 h o')) (fun o' => A5 (ix2 (0 : Fin 1) o')) (i 1 : Fin 16)

/-- A block's stored value is `Gk` at the block's rows, whenever the sample block holds rows `R` of the samples and the
    other blocks are the whole arrays. -/
theorem pay_eq_Gk (B0 : FVec Ideal S2048x64 .f32) (B1 : FVec Ideal S512x64 .f32) (B2 B3 : FVec Ideal S1x512 .f32)
    (B4 : FVec Ideal S512x16 .f32) (B5 : FVec Ideal S1x16 .f32)
    (A0 : FVec Ideal S131072x64 .f32) (A1 : FVec Ideal S512x64 .f32) (A2 A3 : FVec Ideal S1x512 .f32)
    (A4 : FVec Ideal S512x16 .f32) (A5 : FVec Ideal S1x16 .f32) (p : Fin 2048) (q : Fin 16) (R : Fin 131072)
    (h0 : ∀ d : Fin 64, B0 (ix2 p d) = A0 (ix2 R d)) (h1 : ∀ (h : Fin 512) (d : Fin 64), B1 (ix2 h d) = A1 (ix2 h d))
    (h2 : ∀ h : Fin 512, B2 (ix2 (0 : Fin 1) h) = A2 (ix2 (0 : Fin 1) h))
    (h3 : ∀ h : Fin 512, B3 (ix2 (0 : Fin 1) h) = A3 (ix2 (0 : Fin 1) h))
    (h4 : ∀ (h : Fin 512) (o : Fin 16), B4 (ix2 h o) = A4 (ix2 h o))
    (h5 : ∀ o : Fin 16, B5 (ix2 (0 : Fin 1) o) = A5 (ix2 (0 : Fin 1) o)) :
    k0_pay1 (F := Ideal) B0 B1 B2 B3 B4 B5 (ix2 p q) = Gk A0 A1 A2 A3 A4 A5 (ix2 R q) := by
  rw [pay_apply]
  unfold Gk
  simp only [h0, h1, h2, h3, h4, h5]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 points: the sample window and the output window sit at block row
    `t`, column block 0; every other window at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of `Gk` of the arrays as the region finds them. -/
theorem flushed_eq (c : Dev nD) (t : Fin cfg0.N) :
    (dats m 0 c).flushed 6 t = ((cfg0.win 6).blk t).view.read (Elt Ideal)
      (Gk (V m c main_arg0) (V m c main_arg1) (V m c main_v3) (V m c main_v9) (V m c main_arg3) (V m c main_v10)) := by
  rw [Value.flushed6]
  unfold out0_6
  rw [View.canon_unit_zero hz]
  simp only [View.ld_unit_zero (S := S2048x64) hz, View.ld_unit_zero (S := S512x64) hz, View.ld_unit_zero (S := S1x512) hz,
    View.ld_unit_zero (S := S512x16) hz, View.ld_unit_zero (S := S1x16) hz]
  obtain ⟨e00, e01, e10, e11, e20, e21, e30, e31, e40, e41, e50, e51, e60, e61⟩ := idx_facts t
  have ht : t.val < 64 := lt_of_lt_of_eq t.isLt N_0
  funext j
  obtain ⟨p, q, rfl⟩ : ∃ (p : Fin 2048) (q : Fin 16), j = ix2 p q := ⟨j 0, j 1, eq_ix2 j⟩
  have hR : t.val * 2048 + p.val < 131072 := by have := p.isLt; omega
  have hemb : ((cfg0.win 6).blk t).view.emb (ix2 p q) = ix2 (⟨t.val * 2048 + p.val, hR⟩ : Fin 131072) q := by
    funext a; apply Fin.ext
    match a with
    | ⟨0, _⟩ => show win0_6.index t (0 : Fin 2) * 2048 + 1 * p.val = t.val * 2048 + p.val; omega
    | ⟨1, _⟩ => show win0_6.index t (1 : Fin 2) * 16 + 1 * q.val = q.val; omega
  show k0_pay1 (F := Ideal) (iblk m c 0 t) (iblk m c 1 t) (iblk m c 2 t) (iblk m c 3 t) (iblk m c 4 t) (iblk m c 5 t) (ix2 p q)
    = Gk (V m c main_arg0) (V m c main_arg1) (V m c main_v3) (V m c main_v9) (V m c main_arg3) (V m c main_v10)
        (((cfg0.win 6).blk t).view.emb (ix2 p q))
  rw [hemb]
  refine pay_eq_Gk (iblk m c 0 t) (iblk m c 1 t) (iblk m c 2 t) (iblk m c 3 t) (iblk m c 4 t) (iblk m c 5 t)
    (V m c main_arg0) (V m c main_arg1) (V m c main_v3) (V m c main_v9) (V m c main_arg3) (V m c main_v10)
    p q ⟨t.val * 2048 + p.val, hR⟩ ?_ ?_ ?_ ?_ ?_ ?_
  · intro d
    show V m c main_arg0 (((cfg0.win 0).blk t).view.emb (ix2 p d)) = V m c main_arg0 (ix2 (⟨t.val * 2048 + p.val, hR⟩ : Fin 131072) d)
    refine congrArg (V m c main_arg0) (funext fun a => Fin.ext ?_)
    match a with
    | ⟨0, _⟩ => show win0_0.index t (0 : Fin 2) * 2048 + 1 * p.val = t.val * 2048 + p.val; omega
    | ⟨1, _⟩ => show win0_0.index t (1 : Fin 2) * 64 + 1 * d.val = d.val; omega
  · intro h d
    show V m c main_arg1 (((cfg0.win 1).blk t).view.emb (ix2 h d)) = V m c main_arg1 (ix2 h d)
    refine congrArg (V m c main_arg1) (funext fun a => Fin.ext ?_)
    match a with
    | ⟨0, _⟩ => show win0_1.index t (0 : Fin 2) * 512 + 1 * h.val = h.val; omega
    | ⟨1, _⟩ => show win0_1.index t (1 : Fin 2) * 64 + 1 * d.val = d.val; omega
  · intro h
    show V m c main_v3 (((cfg0.win 2).blk t).view.emb (ix2 (0 : Fin 1) h)) = V m c main_v3 (ix2 (0 : Fin 1) h)
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 512 + 1 * h.val = h.val; omega
  · intro h
    show V m c main_v9 (((cfg0.win 3).blk t).view.emb (ix2 (0 : Fin 1) h)) = V m c main_v9 (ix2 (0 : Fin 1) h)
    refine congrArg (V m c main_v9) (funext fun a => Fin.ext ?_)
    match a with
    | ⟨0, _⟩ => show win0_3.index t (0 : Fin 2) * 1 + 1 * 0 = 0; omega
    | ⟨1, _⟩ => show win0_3.index t (1 : Fin 2) * 512 + 1 * h.val = h.val; omega
  · intro h o
    show V m c main_arg3 (((cfg0.win 4).blk t).view.emb (ix2 h o)) = V m c main_arg3 (ix2 h o)
    refine congrArg (V m c main_arg3) (funext fun a => Fin.ext ?_)
    match a with
    | ⟨0, _⟩ => show win0_4.index t (0 : Fin 2) * 512 + 1 * h.val = h.val; omega
    | ⟨1, _⟩ => show win0_4.index t (1 : Fin 2) * 16 + 1 * o.val = o.val; omega
  · intro o
    show V m c main_v10 (((cfg0.win 5).blk t).view.emb (ix2 (0 : Fin 1) o)) = V m c main_v10 (ix2 (0 : Fin 1) o)
    refine congrArg (V m c main_v10) (funext fun a => Fin.ext ?_)
    match a with
    | ⟨0, _⟩ => show win0_5.index t (0 : Fin 2) * 1 + 1 * 0 = 0; omega
    | ⟨1, _⟩ => show win0_5.index t (1 : Fin 2) * 16 + 1 * o.val = o.val; omega

/-- An index of the result is in point `t`'s block iff each coordinate is in the block's range on its axis. -/
theorem mem_blk (t : Fin cfg0.N) (i : S131072x16.Idx) :
    i ∈ ((cfg0.win 6).blk t).view.set ↔ ∀ a : Fin 2, win0_6.index t a * S2048x16.size a ≤ (i a).val
      ∧ (i a).val < win0_6.index t a * S2048x16.size a + S2048x16.size a := by
  show i ∈ ((View.whole main_v11).slice (win0_6.rect t)).set ↔ _
  rw [View.set_slice_whole, Rect.mem_set_unit]
  exact Iff.rfl

/-- Every index of the result lies in the block of the point its row belongs to. -/
theorem cover (i : S131072x16.Idx) :
    ∃ t : Fin cfg0.N, (cfg0.win 6).flush t = true ∧ i ∈ ((cfg0.win 6).blk t).view.set := by
  have hi0 : (i 0).val < 131072 := (i 0).isLt
  have hi1 : (i 1).val < 16 := (i 1).isLt
  obtain ⟨t, ht⟩ : ∃ t : Fin cfg0.N, t.val = (i 0).val / 2048 :=
    ⟨⟨(i 0).val / 2048, lt_of_lt_of_eq (by omega : (i 0).val / 2048 < 64) N_0.symm⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 16 ≤ (i 1).val ∧ (i 1).val < win0_6.index t (1 : Fin 2) * 16 + 16
    omega

/-- With the three prepared rows read back, `Gk` is the network with the exponent written as a product. -/
theorem Gk_eq (x : FVec Ideal S131072x64 .f32) (c : FVec Ideal S512x64 .f32) (σ : FVec Ideal S512 .f32)
    (w : FVec Ideal S512x16 .f32) (b : FVec Ideal S16 .f32) :
    Gk x c (csqRow c) (gammaRow σ) w (biasRow b) = G expoMul x c σ w b := by
  funext i
  unfold Gk G
  simp only [csqRow_apply, gammaRow_apply, biasRow_apply]
  rfl

/-- THE RESULT ARRAY after the run: the network with the exponent `s_h · ((−1) / (2 σ_h σ_h))`, of the arguments. -/
theorem final (c : Dev nD) : (dats m 0 c).arrAt 6 cfg0.N
    = G expoMul (m ((c : Thread nD τ).loc main_arg0)) (m ((c : Thread nD τ).loc main_arg1)) (m ((c : Thread nD τ).loc main_arg2))
        (m ((c : Thread nD τ).loc main_arg3)) (m ((c : Thread nD τ).loc main_arg4)) := by
  rw [(dats m 0 c).arrAt_eq_of_cover 6 _ (fun t _ => flushed_eq m c t) cover,
    V_main_arg0, V_main_arg1, V_main_arg3, V_csq, V_gamma, V_bias]
  exact Gk_eq _ _ _ _ _

/-- The kernel's run with the result array read: the network of the arguments, which end unchanged. -/
theorem run : θ_run defs (onTc (τ := τ) (main (F := Ideal))) ⟨m, fun _ => 0, ρ⟩ fun r => ∀ c : Dev nD,
      r.2.mem ((c : Thread nD τ).loc main_v11)
        = G expoMul (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefSpec.lean ====
/-
  The reference program computes the network with the exponent written as a quotient.

  Read entry by entry, the reference's last stage at `(r, o)` is the normalised linear layer of the activations
  `exp((−s_h) / (2 σ_h σ_h))`, where `s_h` is the expanded squared distance between row `r` of the samples and centroid
  `h`: every broadcast reads its operand at the coordinates it keeps, every sum starts from the literal zero, and both
  matrix products are plain sums over the contracted axis.
-/
import proofs.«153854_j58171037057369_2_alg».proof.Proof.Gen.ReferenceIdeal.Read
import proofs.«153854_j58171037057369_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Rbf

/-! ### The coordinates each stage keeps -/

theorem at28 (r : Fin 131072) (o : Fin 16) : idx_main_v28 (ix2 r o) = ix2 r (0 : Fin 1) :=
  funext fun a => Fin.ext (by match a with | ⟨0, _⟩ => rfl | ⟨1, _⟩ => rfl)
theorem at27 (r : Fin 131072) (u : Fin 1) : idx_main_v27 (ix2 r u) = ix1 r :=
  funext fun a => Fin.ext (by match a with | ⟨0, _⟩ => rfl)
theorem at26 (r : Fin 131072) (k : Fin 16) : idx_main_v26 (ix1 r) k = ix2 r k :=
  funext fun a => Fin.ext (by match a with | ⟨0, _⟩ => rfl | ⟨1, _⟩ => rfl)
theorem at24 (r : Fin 131072) (o : Fin 16) : idx_main_v24 (ix2 r o) = ix2 (0 : Fin 1) o :=
  funext fun a => Fin.ext (by match a with | ⟨0, _⟩ => rfl | ⟨1, _⟩ => rfl)
theorem at23 (u : Fin 1) (o : Fin 16) : idx_main_v23 (ix2 u o) = ix1 o :=
  funext fun a => Fin.ext (by match a with | ⟨0, _⟩ => rfl)
theorem at22l (r : Fin 131072) (o : Fin 16) (k : Fin 512) : lidx_main_v22 (ix2 r o) k = ix2 r k :=
  funext fun a => Fin.ext (by match a with | ⟨0, _⟩ => rfl | ⟨1, _⟩ => rfl)
theorem at22r (r : Fin 131072) (o : Fin 16) (k : Fin 512) : ridx_main_v22 (ix2 r o) k = ix2 k o :=
  funext fun a => Fin.ext (by match a with | ⟨0, _⟩ => rfl | ⟨1, _⟩ => rfl)
theorem at19 (r : Fin 131072) (h : Fin 512) : idx_main_v19 (ix2 r h) = ix2 (0 : Fin 1) h :=
  funext fun a => Fin.ext (by match a with | ⟨0, _⟩ => rfl | ⟨1, _⟩ => rfl)
theorem at18 (u : Fin 1) (h : Fin 512) : idx_main_v18 (ix2 u h) = ix1 h :=
  funext fun a => Fin.ext (by match a with | ⟨0, _⟩ => rfl)
theorem at10l (r : Fin 131072) (h : Fin 512) (k : Fin 64) : lidx_main_v10 (ix2 r h) k = ix2 r k :=
  funext fun a => Fin.ext (by match a with | ⟨0, _⟩ => rfl | ⟨1, _⟩ => rfl)
theorem at10r (r : Fin 131072) (h : Fin 512) (k : Fin 64) : ridx_main_v10 (ix2 r h) k = ix2 k h :=
  funext fun a => Fin.ext (by match a with | ⟨0, _⟩ => rfl | ⟨1, _⟩ => rfl)
theorem at9 (k : Fin 64) (h : Fin 512) : idx_main_v9 (ix2 k h) = ix2 h k :=
  funext fun a => Fin.ext (by match a with | ⟨0, _⟩ => rfl | ⟨1, _⟩ => rfl)
theorem at7 (r : Fin 131072) (h : Fin 512) : idx_main_v7 (ix2 r h) = ix2 (0 : Fin 1) h :=
  funext fun a => Fin.ext (by match a with | ⟨0, _⟩ => rfl | ⟨1, _⟩ => rfl)
theorem at6 (r : Fin 131072) (h : Fin 512) : idx_main_v6 (ix2 r h) = ix2 r (0 : Fin 1) :=
  funext fun a => Fin.ext (by match a with | ⟨0, _⟩ => rfl | ⟨1, _⟩ => rfl)
theorem at5 (u : Fin 1) (h : Fin 512) : idx_main_v5 (ix2 u h) = ix1 h :=
  funext fun a => Fin.ext (by match a with | ⟨0, _⟩ => rfl)
theorem at4 (h : Fin 512) (k : Fin 64) : idx_main_v4 (ix1 h) k = ix2 h k :=
  funext fun a => Fin.ext (by match a with | ⟨0, _⟩ => rfl | ⟨1, _⟩ => rfl)
theorem at2 (r : Fin 131072) (u : Fin 1) : idx_main_v2 (ix2 r u) = ix1 r :=
  funext fun a => Fin.ext (by match a with | ⟨0, _⟩ => rfl)
theorem at1 (r : Fin 131072) (k : Fin 64) : idx_main_v1 (ix1 r) k = ix2 r k :=
  funext fun a => Fin.ext (by match a with | ⟨0, _⟩ => rfl | ⟨1, _⟩ => rfl)

/-! ### The last stage, entry by entry -/

/-- The reference's result is the network with the exponent `(−s_h) / (2 σ_h σ_h)`. -/
theorem ref_eq (x0 : FVec Ideal S131072x64 .f32) (x1 : FVec Ideal S512x64 .f32) (x2 : FVec Ideal S512 .f32)
    (x3 : FVec Ideal S512x16 .f32) (x4 : FVec Ideal S16 .f32) :
    val_main_v29 (F := Ideal) x0 x1 x2 x3 x4 = G expoDiv x0 x1 x2 x3 x4 := by
  funext i
  obtain ⟨r, o, rfl⟩ : ∃ (r : Fin 131072) (o : Fin 16), i = ix2 r o := ⟨i 0, i 1, eq_ix2 i⟩
  simp only [val_main_v29_apply, val_main_v28_apply, val_main_v27_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply, val_main_cst_3_apply,
    at28, at27, at26, at24, at23, at22l, at22r, at19, at18, at10l, at10r, at9, at7, at6, at5, at4, at2, at1,
    Ideal.hostDivf_def, Ideal.addf_def, Ideal.subf_def, Ideal.mulf_def, Ideal.hostNegf_def, Ideal.negf_def,
    Ideal.hostUnary_exp_def, Ideal.ofBits_def, Ideal.ofBits_zero_f32, zero_add]
  rfl

end Cert.ReferenceIdeal.RefValue

end
-- ==== Proof.Widths.lean ====
/-
  The precondition says every width is different from zero.

  The precondition is a conjunction, taken entry by entry over each argument array and then over the arrays; its last
  conjunct compares every width with the literal zero by "not equal".  If the whole is true then so is that conjunct at
  every index, and on the extended reals the comparison at index `k` being true is `σ_k ≠ 0`.
-/
import proofs.«153854_j58171037057369_2_alg».proof.Pre_finite_inputs
import Idealize.ShloMosaic.Lib.ReduceAll
import Idealize.ShloMosaic.Lib.ValueIdx
import Idealize.ShloMosaic.PureOps.Ideal.Laws

noncomputable section

namespace Cert.Pre_finite_inputs.Widths

open Cert.Pre_finite_inputs Idealize.ShloMosaic Idealize.ShloMosaic.ValueIdx

variable [Facts]
open Facts

instance : Subsingleton S_.Idx := ⟨fun a b => funext fun d => d.elim0⟩

/-- Where the precondition holds, no width is zero. -/
theorem width_ne_zero (a0 : FVec Ideal S131072x64 .f32) (a1 : FVec Ideal S512x64 .f32) (a2 : FVec Ideal S512 .f32)
    (a3 : FVec Ideal S512x16 .f32) (a4 : FVec Ideal S16 .f32)
    (h : fn (F := Ideal) a0 a1 a2 a3 a4 = fun _ => 1#1) (k : Fin 512) : a2 (ix1 k) ≠ 0 := by
  have h0 := congrFun h ix0
  dsimp only [fn, fn_part1] at h0
  have h1 := (IntOp.andi_eq_one.1 h0).2
  have h2 := Host.reduce_andi_all _ _ _ _ _ h1 (ix1 k)
  have h3 : Ideal.cmp .une (a2 (ix1 k)) (Ideal.ofBits .f32 0x00000000#32) = 1#1 := h2
  intro hk
  rw [hk, Ideal.ofBits_zero_f32] at h3
  simp [Ideal.cmp] at h3

end Cert.Pre_finite_inputs.Widths

end
-- ==== Proof.lean ====
/-
  The radial-basis network kernel against its jnp reference, on the extended reals.

  Both programs compute, for each of 131072 samples, the normalised linear layer of 512 Gaussian activations
  `exp(e_h)`, where `e_h` comes from the expanded squared distance `s_h = |x|² + |c_h|² − 2 x·c_h` and the width
  `σ_h`.  The kernel multiplies `s_h` by a reciprocal `(−1) / (2 σ_h σ_h)` prepared beforehand; the reference divides
  `−s_h` by `2 σ_h σ_h`.  For `σ_h ≠ 0` the two exponents are the same extended real (Proof/Spec.lean `expo_eq`:
  a quotient by a divisor that is not zero is the product with the inverse, and the sign moves across the product),
  and everything after the exponent is literally the same expression on both sides, so no finiteness is used.  The
  precondition's last conjunct is exactly `σ_h ≠ 0` for every `h` (Proof/Widths.lean).

  The kernel's side: what one grid point stores (Proof/Pay.lean), the three rows prepared before the grid runs
  (Proof/Prefix.lean), and the 64 blocks put together (Proof/Whole.lean).  The reference's side: its last stage read
  entry by entry (Proof/RefSpec.lean).  The idealization rewrote nothing, so the kernel and its idealized text are
  related trivially.
-/
import proofs.«153854_j58171037057369_2_alg».proof.Defs
import proofs.«153854_j58171037057369_2_alg».proof.Proof.Gen.Kernel
import proofs.«153854_j58171037057369_2_alg».proof.Proof.Gen.Kernel.Skeleton
import proofs.«153854_j58171037057369_2_alg».proof.Proof.Gen.Kernel.Launch
import proofs.«153854_j58171037057369_2_alg».proof.Proof.Gen.Kernel.Points
import proofs.«153854_j58171037057369_2_alg».proof.Proof.Gen.Kernel.Frame
import proofs.«153854_j58171037057369_2_alg».proof.Proof.Gen.KernelIdeal
import proofs.«153854_j58171037057369_2_alg».proof.Proof.Gen.KernelIdeal.Skeleton
import proofs.«153854_j58171037057369_2_alg».proof.Proof.Gen.KernelIdeal.Launch
import proofs.«153854_j58171037057369_2_alg».proof.Proof.Gen.KernelIdeal.Points
import proofs.«153854_j58171037057369_2_alg».proof.Proof.Gen.KernelIdeal.Frame
import proofs.«153854_j58171037057369_2_alg».proof.Proof.Gen.ReferenceIdeal
import proofs.«153854_j58171037057369_2_alg».proof.Proof.Gen.KernelIdeal.Value
import proofs.«153854_j58171037057369_2_alg».proof.Proof.Gen.ReferenceIdeal.Run
import proofs.«153854_j58171037057369_2_alg».proof.Proof.Gen.ReferenceIdeal.Read
import proofs.«153854_j58171037057369_2_alg».proof.Proof.Gen.Pre_finite_inputs
import proofs.«153854_j58171037057369_2_alg».proof.Proof.Whole
import proofs.«153854_j58171037057369_2_alg».proof.Proof.RefSpec
import proofs.«153854_j58171037057369_2_alg».proof.Proof.Widths
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From arguments that agree and widths that are not zero, the kernel's result array (the network with the exponent as
    a product) and the reference's (with the exponent as a quotient) are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v29_eq, Cert.ReferenceIdeal.RefValue.ref_eq]
  exact (Cert.Rbf.G_expo_eq _ _ _ _ _
    (Cert.Pre_finite_inputs.Widths.width_ne_zero _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
